-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S8x65536x256 : Shape := ⟨3, ![8, 65536, 256]⟩
abbrev S256x256 : Shape := ⟨2, ![256, 256]⟩
abbrev S256 : Shape := ⟨1, ![256]⟩
abbrev S132x512 : Shape := ⟨2, ![132, 512]⟩
abbrev S132 : Shape := ⟨1, ![132]⟩
abbrev S132x132 : Shape := ⟨2, ![132, 132]⟩
abbrev S256x132 : Shape := ⟨2, ![256, 132]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S8x65536x256 : S_.BroadcastsInDim S8x65536x256 (![] : Fin 0 → Fin S8x65536x256.rank)
  reducesTo_S8x65536x256_S_d0_1_2 : S8x65536x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S132x512 : S_.BroadcastsInDim S132x512 (![] : Fin 0 → Fin S132x512.rank)
  reducesTo_S132x512_S_d0_1 : S132x512.ReducesTo [0, 1] S_
  bcast_S_S132 : S_.BroadcastsInDim S132 (![] : Fin 0 → Fin S132.rank)
  reducesTo_S132_S_d0 : S132.ReducesTo [0] S_
  bcast_S_S132x132 : S_.BroadcastsInDim S132x132 (![] : Fin 0 → Fin S132x132.rank)
  reducesTo_S132x132_S_d0_1 : S132x132.ReducesTo [0, 1] S_
  bcast_S_S256x132 : S_.BroadcastsInDim S256x132 (![] : Fin 0 → Fin S256x132.rank)
  reducesTo_S256x132_S_d0_1 : S256x132.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S132 .f32) (main_arg12 : FVec F S256x132 .f32) (main_arg13 : FVec F S256 .f32) (main_v48 : IVec S_ 1) (main_v49 : FVec F S132x132 .f32) (main_v50 : FVec F S132x132 .f32) : IVec S_ 1 :=
  let main_v51 : IVec S132x132 1 := cmpf .olt main_v49 main_v50
  let main_c_19 : IVec S_ 1 := constantI S_ 1 1#1
  let main_v52 : IVec S_ 1 := (fun x v => Host.reduce IntOp.andi x v reducesTo_S132x132_S_d0_1 h_S_) main_v51 main_c_19
  let main_v53 : IVec S_ 1 := andi main_v48 main_v52
  let main_v54 : FVec F S132 .f32 := Host.absf main_arg11
  let main_cst_20 : FVec F S_ .f32 := constant S_ .f32 0x7F800000#32
  let main_v55 : FVec F S132 .f32 := broadcastInDim S132 ![] bcast_S_S132 main_cst_20
  let main_v56 : IVec S132 1 := cmpf .olt main_v54 main_v55
  let main_c_21 : IVec S_ 1 := constantI S_ 1 1#1
  let main_v57 : IVec S_ 1 := (fun x v => Host.reduce IntOp.andi x v reducesTo_S132_S_d0 h_S_) main_v56 main_c_21
  let main_v58 : IVec S_ 1 := andi main_v53 main_v57
  let main_v59 : FVec F S256x132 .f32 := Host.absf main_arg12
  let main_cst_22 : FVec F S_ .f32 := constant S_ .f32 0x7F800000#32
  let main_v60 : FVec F S256x132 .f32 := broadcastInDim S256x132 ![] bcast_S_S256x132 main_cst_22
  let main_v61 : IVec S256x132 1 := cmpf .olt main_v59 main_v60
  let main_c_23 : IVec S_ 1 := constantI S_ 1 1#1
  let main_v62 : IVec S_ 1 := (fun x v => Host.reduce IntOp.andi x v reducesTo_S256x132_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S132 .f32) (main_arg8 : FVec F S132x132 .f32) (main_arg9 : FVec F S132 .f32) (main_arg10 : FVec F S132x132 .f32) (main_arg11 : FVec F S132 .f32) (main_arg12 : FVec F S256x132 .f32) (main_arg13 : FVec F S256 .f32) (main_v33 : IVec S_ 1) : IVec S_ 1 :=
  let main_v34 : FVec F S132 .f32 := Host.absf main_arg7
  let main_cst_12 : FVec F S_ .f32 := constant S_ .f32 0x7F800000#32
  let main_v35 : FVec F S132 .f32 := broadcastInDim S132 ![] bcast_S_S132 main_cst_12
  let main_v36 : IVec S132 1 := cmpf .olt main_v34 main_v35
  let main_c_13 : IVec S_ 1 := constantI S_ 1 1#1
  let main_v37 : IVec S_ 1 := (fun x v => Host.reduce IntOp.andi x v reducesTo_S132_S_d0 h_S_) main_v36 main_c_13
  let main_v38 : IVec S_ 1 := andi main_v33 main_v37
  let main_v39 : FVec F S132x132 .f32 := Host.absf main_arg8
  let main_cst_14 : FVec F S_ .f32 := constant S_ .f32 0x7F800000#32
  let main_v40 : FVec F S132x132 .f32 := broadcastInDim S132x132 ![] bcast_S_S132x132 main_cst_14
  let main_v41 : IVec S132x132 1 := cmpf .olt main_v39 main_v40
  let main_c_15 : IVec S_ 1 := constantI S_ 1 1#1
  let main_v42 : IVec S_ 1 := (fun x v => Host.reduce IntOp.andi x v reducesTo_S132x132_S_d0_1 h_S_) main_v41 main_c_15
  let main_v43 : IVec S_ 1 := andi main_v38 main_v42
  let main_v44 : FVec F S132 .f32 := Host.absf main_arg9
  let main_cst_16 : FVec F S_ .f32 := constant S_ .f32 0x7F800000#32
  let main_v45 : FVec F S132 .f32 := broadcastInDim S132 ![] bcast_S_S132 main_cst_16
  let main_v46 : IVec S132 1 := cmpf .olt main_v44 main_v45
  let main_c_17 : IVec S_ 1 := constantI S_ 1 1#1
  let main_v47 : IVec S_ 1 := (fun x v => Host.reduce IntOp.andi x v reducesTo_S132_S_d0 h_S_) main_v46 main_c_17
  let main_v48 : IVec S_ 1 := andi main_v43 main_v47
  let main_v49 : FVec F S132x132 .f32 := Host.absf main_arg10
  let main_cst_18 : FVec F S_ .f32 := constant S_ .f32 0x7F800000#32
  let main_v50 : FVec F S132x132 .f32 := broadcastInDim S132x132 ![] bcast_S_S132x132 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S132x512 .f32) (main_arg7 : FVec F S132 .f32) (main_arg8 : FVec F S132x132 .f32) (main_arg9 : FVec F S132 .f32) (main_arg10 : FVec F S132x132 .f32) (main_arg11 : FVec F S132 .f32) (main_arg12 : FVec F S256x132 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S132x512 .f32 := Host.absf main_arg6
  let main_cst_10 : FVec F S_ .f32 := constant S_ .f32 0x7F800000#32
  let main_v30 : FVec F S132x512 .f32 := broadcastInDim S132x512 ![] bcast_S_S132x512 main_cst_10
  let main_v31 : IVec S132x512 1 := cmpf .olt main_v29 main_v30
  let main_c_11 : IVec S_ 1 := constantI S_ 1 1#1
  let main_v32 : IVec S_ 1 := (fun x v => Host.reduce IntOp.andi x v reducesTo_S132x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x256 .f32) (main_arg1 : FVec F S8x65536x256 .f32) (main_arg2 : FVec F S256x256 .f32) (main_arg3 : FVec F S256 .f32) (main_arg4 : FVec F S256x256 .f32) (main_arg5 : FVec F S256 .f32) (main_arg6 : FVec F S132x512 .f32) (main_arg7 : FVec F S132 .f32) (main_arg8 : FVec F S132x132 .f32) (main_arg9 : FVec F S132 .f32) (main_arg10 : FVec F S132x132 .f32) (main_arg11 : FVec F S132 .f32) (main_arg12 : FVec F S256x132 .f32) (main_arg13 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S8x65536x256 .f32 := Host.absf main_arg1
  let main_cst_0 : FVec F S_ .f32 := constant S_ .f32 0x7F800000#32
  let main_v5 : FVec F S8x65536x256 .f32 := broadcastInDim S8x65536x256 ![] bcast_S_S8x65536x256 main_cst_0
  let main_v6 : IVec S8x65536x256 1 := cmpf .olt main_v4 main_v5
  let main_c_1 : IVec S_ 1 := constantI S_ 1 1#1
  let main_v7 : IVec S_ 1 := (fun x v => Host.reduce IntOp.andi x v reducesTo_S8x65536x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x256 : Shape := ⟨2, ![65536, 256]⟩
abbrev S8x65536x256 : Shape := ⟨3, ![8, 65536, 256]⟩
abbrev S256x256 : Shape := ⟨2, ![256, 256]⟩
abbrev S256 : Shape := ⟨1, ![256]⟩
abbrev S132x512 : Shape := ⟨2, ![132, 512]⟩
abbrev S132 : Shape := ⟨1, ![132]⟩
abbrev S132x132 : Shape := ⟨2, ![132, 132]⟩
abbrev S256x132 : Shape := ⟨2, ![256, 132]⟩
abbrev S512x256 : Shape := ⟨2, ![512, 256]⟩
abbrev S8x512x256 : Shape := ⟨3, ![8, 512, 256]⟩
abbrev S1x256 : Shape := ⟨2, ![1, 256]⟩
abbrev S512x512 : Shape := ⟨2, ![512, 512]⟩
abbrev S512x132 : Shape := ⟨2, ![512, 132]⟩
abbrev S1x132 : Shape := ⟨2, ![1, 132]⟩
abbrev S132x256 : Shape := ⟨2, ![132, 256]⟩

abbrev nBuf : Space → Nat
  | .hbm => 15
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S8x65536x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S132x512, .f32⟩
  | .hbm, ⟨7, _⟩ => ⟨S132, .f32⟩
  | .hbm, ⟨8, _⟩ => ⟨S132x132, .f32⟩
  | .hbm, ⟨9, _⟩ => ⟨S132, .f32⟩
  | .hbm, ⟨10, _⟩ => ⟨S132x132, .f32⟩
  | .hbm, ⟨11, _⟩ => ⟨S132, .f32⟩
  | .hbm, ⟨12, _⟩ => ⟨S256x132, .f32⟩
  | .hbm, ⟨13, _⟩ => ⟨S256, .f32⟩
  | .hbm, ⟨14, _⟩ => ⟨S65536x256, .f32⟩
  | .local _ .vmem, ⟨0, _⟩ => ⟨S512x256, .f32⟩
  | .local _ .vmem, ⟨1, _⟩ => ⟨S512x256, .f32⟩
  | .local _ .vmem, ⟨2, _⟩ => ⟨S8x512x256, .f32⟩
  | .local _ .vmem, ⟨3, _⟩ => ⟨S8x512x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S132x512, .f32⟩
  | .local _ .vmem, ⟨9, _⟩ => ⟨S132, .f32⟩
  | .local _ .vmem, ⟨10, _⟩ => ⟨S132x132, .f32⟩
  | .local _ .vmem, ⟨11, _⟩ => ⟨S132, .f32⟩
  | .local _ .vmem, ⟨12, _⟩ => ⟨S132x132, .f32⟩
  | .local _ .vmem, ⟨13, _⟩ => ⟨S132, .f32⟩
  | .local _ .vmem, ⟨14, _⟩ => ⟨S256x132, .f32⟩
  | .local _ .vmem, ⟨15, _⟩ => ⟨S256, .f32⟩
  | .local _ .vmem, ⟨16, _⟩ => ⟨S512x256, .f32⟩
  | .local _ .vmem, ⟨17, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S132x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S132 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S132x132 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S132 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S132x132 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S132 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x132 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  inb_S8x512x256_S8x512x256_0_0_0 : ∀ a, (![0, 0, 0] : Fin 3 → Nat) a + S8x512x256.size a ≤ S8x512x256.size a
  h_S8x512x256 : 0 < S8x512x256.numel
  reduces_S8x512x256_S512x256 : S8x512x256.Reduces [0] S512x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256_S256_0 : ∀ a, (![0] : Fin 1 → Nat) a + S256.size a ≤ S256.size a
  h_S256 : 0 < S256.numel
  transposes_S256x256_p1_0_S256x256 : S256x256.Transposes [1, 0] S256x256
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  concatenates_S512x256_S512x256_S512x512_d1 : Shape.Concatenates [S512x256, S512x256] S512x512 1
  inb_S132x512_S132x512_0_0 : ∀ a, (![0, 0] : Fin 2 → Nat) a + S132x512.size a ≤ S132x512.size a
  h_S132x512 : 0 < S132x512.numel
  inb_S132_S132_0 : ∀ a, (![0] : Fin 1 → Nat) a + S132.size a ≤ S132.size a
  h_S132 : 0 < S132.numel
  transposes_S132x512_p1_0_S512x132 : S132x512.Transposes [1, 0] S512x132
  shapeCasts_S132_S1x132 : S132.ShapeCasts S1x132
  broadcasts_S1x132_S512x132 : S1x132.Broadcasts S512x132
  inb_S132x132_S132x132_0_0 : ∀ a, (![0, 0] : Fin 2 → Nat) a + S132x132.size a ≤ S132x132.size a
  h_S132x132 : 0 < S132x132.numel
  transposes_S132x132_p1_0_S132x132 : S132x132.Transposes [1, 0] S132x132
  inb_S256x132_S256x132_0_0 : ∀ a, (![0, 0] : Fin 2 → Nat) a + S256x132.size a ≤ S256x132.size a
  h_S256x132 : 0 < S256x132.numel
  transposes_S256x132_p1_0_S132x256 : S256x132.Transposes [1, 0] S132x256
  dot_S512x256_S256x256_S512x256_1_0_0_1_n_n_wf : DotDims.WF S512x256 S256x256 S512x256 [1] [0] [0] [1] [] []
  dot_S512x512_S512x132_S512x132_1_0_0_1_n_n_wf : DotDims.WF S512x512 S512x132 S512x132 [1] [0] [0] [1] [] []
  dot_S512x132_S132x132_S512x132_1_0_0_1_n_n_wf : DotDims.WF S512x132 S132x132 S512x132 [1] [0] [0] [1] [] []
  dot_S512x132_S132x256_S512x256_1_0_0_1_n_n_wf : DotDims.WF S512x132 S132x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S8x65536x256.size a
  hwx0_1 : ∀ i : grid0.Coords, EltTy.bits .f32 = 32 ∨ (Rect.block (s := S8x65536x256) S8x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S132x512.size a ≤ S132x512.size a
  hwx0_6 : ∀ i : grid0.Coords, EltTy.bits .f32 = 32 ∨ (Rect.block (s := S132x512) S132x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S132.size a ≤ S132.size a
  hwx0_7 : ∀ i : grid0.Coords, EltTy.bits .f32 = 32 ∨ (Rect.block (s := S132) S132.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S132x132.size a ≤ S132x132.size a
  hwx0_8 : ∀ i : grid0.Coords, EltTy.bits .f32 = 32 ∨ (Rect.block (s := S132x132) S132x132.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S132.size a ≤ S132.size a
  hwx0_9 : ∀ i : grid0.Coords, EltTy.bits .f32 = 32 ∨ (Rect.block (s := S132) S132.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S132x132.size a ≤ S132x132.size a
  hwx0_10 : ∀ i : grid0.Coords, EltTy.bits .f32 = 32 ∨ (Rect.block (s := S132x132) S132x132.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S132.size a ≤ S132.size a
  hwx0_11 : ∀ i : grid0.Coords, EltTy.bits .f32 = 32 ∨ (Rect.block (s := S132) S132.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x132.size a ≤ S256x132.size a
  hwx0_12 : ∀ i : grid0.Coords, EltTy.bits .f32 = 32 ∨ (Rect.block (s := S256x132) S256x132.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S65536x256.size a
  hwx0_14 : ∀ i : grid0.Coords, EltTy.bits .f32 = 32 ∨ (Rect.block (s := S65536x256) S512x256.size (cc0_transform_14 i) (hinb0_14 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x132_S512x132_1_0_0_1_n_n : DotDims S512x512 S512x132 S512x132 where
  lhsContracting := [1]
  rhsContracting := [0]
  lhsNonContracting := [0]
  rhsNonContracting := [1]
  lhsBatch := []
  rhsBatch := []
  wf := dot_S512x512_S512x132_S512x132_1_0_0_1_n_n_wf
def dot_S512x132_S132x132_S512x132_1_0_0_1_n_n : DotDims S512x132 S132x132 S512x132 where
  lhsContracting := [1]
  rhsContracting := [0]
  lhsNonContracting := [0]
  rhsNonContracting := [1]
  lhsBatch := []
  rhsBatch := []
  wf := dot_S512x132_S132x132_S512x132_1_0_0_1_n_n_wf
def dot_S512x132_S132x256_S512x256_1_0_0_1_n_n : DotDims S512x132 S132x256 S512x256 where
  lhsContracting := [1]
  rhsContracting := [0]
  lhsNonContracting := [0]
  rhsNonContracting := [1]
  lhsBatch := []
  rhsBatch := []
  wf := dot_S512x132_S132x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S132x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S132.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S132x132.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S132.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S132x132.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S132.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x132.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S512x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x256 : Shape := ⟨2, ![65536, 256]⟩
abbrev S8x65536x256 : Shape := ⟨3, ![8, 65536, 256]⟩
abbrev S256x256 : Shape := ⟨2, ![256, 256]⟩
abbrev S256 : Shape := ⟨1, ![256]⟩
abbrev S132x512 : Shape := ⟨2, ![132, 512]⟩
abbrev S132 : Shape := ⟨1, ![132]⟩
abbrev S132x132 : Shape := ⟨2, ![132, 132]⟩
abbrev S256x132 : Shape := ⟨2, ![256, 132]⟩
abbrev S_ : Shape := ⟨0, ![]⟩
abbrev S1x256 : Shape := ⟨2, ![1, 256]⟩
abbrev S65536x512 : Shape := ⟨2, ![65536, 512]⟩
abbrev S512x132 : Shape := ⟨2, ![512, 132]⟩
abbrev S65536x132 : Shape := ⟨2, ![65536, 132]⟩
abbrev S1x132 : Shape := ⟨2, ![1, 132]⟩
abbrev S132x256 : Shape := ⟨2, ![132, 256]⟩

abbrev nBuf : Space → Nat
  | .hbm => 59
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S8x65536x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S132x512, .f32⟩
  | .hbm, ⟨7, _⟩ => ⟨S132, .f32⟩
  | .hbm, ⟨8, _⟩ => ⟨S132x132, .f32⟩
  | .hbm, ⟨9, _⟩ => ⟨S132, .f32⟩
  | .hbm, ⟨10, _⟩ => ⟨S132x132, .f32⟩
  | .hbm, ⟨11, _⟩ => ⟨S132, .f32⟩
  | .hbm, ⟨12, _⟩ => ⟨S256x132, .f32⟩
  | .hbm, ⟨13, _⟩ => ⟨S256, .f32⟩
  | .hbm, ⟨14, _⟩ => ⟨S_, .f32⟩
  | .hbm, ⟨15, _⟩ => ⟨S65536x256, .f32⟩
  | .hbm, ⟨16, _⟩ => ⟨S256x256, .f32⟩
  | .hbm, ⟨17, _⟩ => ⟨S65536x256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S1x256, .f32⟩
  | .hbm, ⟨22, _⟩ => ⟨S65536x256, .f32⟩
  | .hbm, ⟨23, _⟩ => ⟨S65536x256, .f32⟩
  | .hbm, ⟨24, _⟩ => ⟨S256x256, .f32⟩
  | .hbm, ⟨25, _⟩ => ⟨S65536x256, .f32⟩
  | .hbm, ⟨26, _⟩ => ⟨S1x256, .f32⟩
  | .hbm, ⟨27, _⟩ => ⟨S65536x256, .f32⟩
  | .hbm, ⟨28, _⟩ => ⟨S65536x256, .f32⟩
  | .hbm, ⟨29, _⟩ => ⟨S65536x512, .f32⟩
  | .hbm, ⟨30, _⟩ => ⟨S512x132, .f32⟩
  | .hbm, ⟨31, _⟩ => ⟨S65536x132, .f32⟩
  | .hbm, ⟨32, _⟩ => ⟨S1x132, .f32⟩
  | .hbm, ⟨33, _⟩ => ⟨S65536x132, .f32⟩
  | .hbm, ⟨34, _⟩ => ⟨S65536x132, .f32⟩
  | .hbm, ⟨35, _⟩ => ⟨S_, .f32⟩
  | .hbm, ⟨36, _⟩ => ⟨S65536x132, .f32⟩
  | .hbm, ⟨37, _⟩ => ⟨S65536x132, .f32⟩
  | .hbm, ⟨38, _⟩ => ⟨S132x132, .f32⟩
  | .hbm, ⟨39, _⟩ => ⟨S65536x132, .f32⟩
  | .hbm, ⟨40, _⟩ => ⟨S1x132, .f32⟩
  | .hbm, ⟨41, _⟩ => ⟨S65536x132, .f32⟩
  | .hbm, ⟨42, _⟩ => ⟨S65536x132, .f32⟩
  | .hbm, ⟨43, _⟩ => ⟨S_, .f32⟩
  | .hbm, ⟨44, _⟩ => ⟨S65536x132, .f32⟩
  | .hbm, ⟨45, _⟩ => ⟨S65536x132, .f32⟩
  | .hbm, ⟨46, _⟩ => ⟨S132x132, .f32⟩
  | .hbm, ⟨47, _⟩ => ⟨S65536x132, .f32⟩
  | .hbm, ⟨48, _⟩ => ⟨S1x132, .f32⟩
  | .hbm, ⟨49, _⟩ => ⟨S65536x132, .f32⟩
  | .hbm, ⟨50, _⟩ => ⟨S65536x132, .f32⟩
  | .hbm, ⟨51, _⟩ => ⟨S_, .f32⟩
  | .hbm, ⟨52, _⟩ => ⟨S65536x132, .f32⟩
  | .hbm, ⟨53, _⟩ => ⟨S65536x132, .f32⟩
  | .hbm, ⟨54, _⟩ => ⟨S132x256, .f32⟩
  | .hbm, ⟨55, _⟩ => ⟨S65536x256, .f32⟩
  | .hbm, ⟨56, _⟩ => ⟨S1x256, .f32⟩
  | .hbm, ⟨57, _⟩ => ⟨S65536x256, .f32⟩
  | .hbm, ⟨58, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_cst : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_cst : Ref sig .tc := ⟨.hbm, 51, rfl⟩
abbrev main_call2_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]

class Facts₀ : Prop where
  reducesTo_S8x65536x256_S65536x256_d0 : S8x65536x256.ReducesTo [0] S65536x256
  h_S_ : 0 < S_.numel
  transposes_S256x256_S256x256_1_0 : S256x256.Transposes [1, 0] S256x256
  bcast_S_S256 : S_.BroadcastsInDim S256 (![] : Fin 0 → Fin S256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  concatenates_S65536x256_S65536x256_S65536x512_d1 : Shape.Concatenates [S65536x256, S65536x256] S65536x512 1
  transposes_S132x512_S512x132_1_0 : S132x512.Transposes [1, 0] S512x132
  bcast_S132_S1x132_1 : S132.BroadcastsInDim S1x132 (![1] : Fin 1 → Fin S1x132.rank)
  bcast_S1x132_S65536x132_0_1 : S1x132.BroadcastsInDim S65536x132 (![0, 1] : Fin 2 → Fin S65536x132.rank)
  bcast_S_S65536x132 : S_.BroadcastsInDim S65536x132 (![] : Fin 0 → Fin S65536x132.rank)
  transposes_S132x132_S132x132_1_0 : S132x132.Transposes [1, 0] S132x132
  transposes_S256x132_S132x256_1_0 : S256x132.Transposes [1, 0] S132x256
  dot_S65536x256_S256x256_S65536x256_1_0_0_1_n_n_wf : DotDims.WF S65536x256 S256x256 S65536x256 [1] [0] [0] [1] [] []
  dot_S65536x512_S512x132_S65536x132_1_0_0_1_n_n_wf : DotDims.WF S65536x512 S512x132 S65536x132 [1] [0] [0] [1] [] []
  dot_S65536x132_S132x132_S65536x132_1_0_0_1_n_n_wf : DotDims.WF S65536x132 S132x132 S65536x132 [1] [0] [0] [1] [] []
  dot_S65536x132_S132x256_S65536x256_1_0_0_1_n_n_wf : DotDims.WF S65536x132 S132x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x512_S512x132_S65536x132_1_0_0_1_n_n : DotDims S65536x512 S512x132 S65536x132 where
  lhsContracting := [1]
  rhsContracting := [0]
  lhsNonContracting := [0]
  rhsNonContracting := [1]
  lhsBatch := []
  rhsBatch := []
  wf := dot_S65536x512_S512x132_S65536x132_1_0_0_1_n_n_wf
def dot_S65536x132_S132x132_S65536x132_1_0_0_1_n_n : DotDims S65536x132 S132x132 S65536x132 where
  lhsContracting := [1]
  rhsContracting := [0]
  lhsNonContracting := [0]
  rhsNonContracting := [1]
  lhsBatch := []
  rhsBatch := []
  wf := dot_S65536x132_S132x132_S65536x132_1_0_0_1_n_n_wf
def dot_S65536x132_S132x256_S65536x256_1_0_0_1_n_n : DotDims S65536x132 S132x256 S65536x256 where
  lhsContracting := [1]
  rhsContracting := [0]
  lhsNonContracting := [0]
  rhsNonContracting := [1]
  lhsBatch := []
  rhsBatch := []
  wf := dot_S65536x132_S132x256_S65536x256_1_0_0_1_n_n_wf

class Facts : Prop extends Facts₀ where

variable [Facts]
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowLayers.lean ====
/-
  Row-wise network layers read as whole arrays, at the ideal values.

  A network applied to each row of a matrix is built from a few layers. Each is stated here once, as a function of whole
  arrays over arbitrary extents:

    sumLead     the sum over the leading axis of a [c, n, d] array:  (p, j) ↦ ∑ k, x (k, p, j)
    dense       an affine map of each row, the weight stored [out, in]:  (p, j) ↦ (∑ d, X (p, d) * W (j, d)) + b j
    relu        the maximum with the value of the zero word, entry by entry
    scale       the product with the value of a float word, entry by entry
    sideBySide  an [n, a] and an [n, b] array joined along the columns

  Two spellings of each layer are proved equal to it. On the vector unit an affine map is a product with the transposed
  weight into a zero accumulator plus the bias cast to a [1, N] row and broadcast down the rows; on the host it is a
  dot_general with the transposed weight plus the bias broadcast in two steps. A sum over the leading axis is a
  multi_reduction from the neutral accumulator; a relu is a maximum with a zero splat. None of these equalities moves a
  factor across a sum, so they hold for every extended real, infinite entries included.

  Every layer computes row p of its result from row p of its array operands alone (the weights and biases are shared by
  all rows). So each layer commutes with taking a family of rows, 'rows e' below: a network of such layers applied to a
  block of rows is the same block of rows of the network applied to the whole matrix.
-/
import Idealize.ShloMosaic.PureOps.Ideal.Laws
import Idealize.ShloMosaic.Lib.ValueIdx
import Idealize.ShloMosaic.Lib.ValueLayout
import Idealize.ShloMosaic.Lib.Pipeline.Value
import proofs.«137845_j1125281431922_1_alg».proof.Proof.LibPlainDot

noncomputable section

namespace Cert.Lib.RowLayers

open Idealize.ShloMosaic Idealize.ShloMosaic.ValueIdx

/-! ## The layers -/

/-- The sum over the leading axis of a [c, n, d] array. -/
def sumLead (c n d : ℕ) (x : (⟨3, ![c, n, d]⟩ : Shape).Idx → EReal) : (⟨2, ![n, d]⟩ : Shape).Idx → EReal :=
  fun i => ∑ k : Fin c, x (ix3 k (i 0) (i 1))

/-- An affine map of each row: the weight is stored [out, in], so entry (p, j) pairs row p of X with row j of W. -/
def dense (n K N : ℕ) (X : (⟨2, ![n, K]⟩ : Shape).Idx → EReal) (W : (⟨2, ![N, K]⟩ : Shape).Idx → EReal)
    (b : (⟨1, ![N]⟩ : Shape).Idx → EReal) : (⟨2, ![n, N]⟩ : Shape).Idx → EReal :=
  fun i => (∑ d : Fin K, X (ix2 (i 0) d) * W (ix2 (i 1) d)) + b (ix1 (i 1))

/-- The maximum with the value of the zero word, entry by entry. -/
def relu (s : Shape) (X : s.Idx → EReal) : s.Idx → EReal :=
  fun i => max (X i) (Ideal.ofBits .f32 0x00000000#32)

/-- The product with the value of the float word w, entry by entry (the word on the left). -/
def scale (s : Shape) (w : BitVec 32) (b : s.Idx → EReal) : s.Idx → EReal :=
  fun i => Ideal.ofBits .f32 w * b i

/-- An [n, a] array and an [n, b] array joined along the columns: column q < a is the first array's, column q ≥ a the
    second array's column q - a. -/
def sideBySide (n a b c : ℕ) (hc : c = a + b) (X : (⟨2, ![n, a]⟩ : Shape).Idx → EReal)
    (Y : (⟨2, ![n, b]⟩ : Shape).Idx → EReal) : (⟨2, ![n, c]⟩ : Shape).Idx → EReal :=
  fun i => if h : (i 1).val < a then X (ix2 (i 0) ⟨(i 1).val, h⟩)
    else Y (ix2 (i 0) ⟨(i 1).val - a, by have := idx2_lt1 i; omega⟩)

/-! ## A change of float format is the identity at the ideal values -/

theorem truncf_id {s : Shape} {φ ψ : FTy} (X : FVec Ideal s φ) (h : ψ.bits < φ.bits) :
    (truncf ψ X h : FVec Ideal s ψ) = X := rfl

/-! ## A plain product at a pair of coordinates -/

theorem matmul_zero_ix2 (M K N : ℕ) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  Cert.Lib.PlainDot.matmul_zero_apply M K N prec l r (ix2 p q)

theorem dotGeneral_ix2 (M K N : ℕ) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  Cert.Lib.PlainDot.dotGeneral_apply M K N prec sched l r (ix2 p q)

/-! ## The vector unit's spellings -/

/-- A multi_reduction by addition over the leading axis, from the neutral accumulator, is the sum over that axis. -/
theorem kernel_sumLead (c n d : ℕ) (x : FVec Ideal ⟨3, ![c, n, d]⟩ .f32)
    (h : (⟨3, ![c, n, d]⟩ : Shape).Reduces [0] ⟨2, ![n, d]⟩)
    (hacc : (0x00000000#32 : BitVec 32) = 0x00000000#32) :
    multiReduction .add [0] ⟨2, ![n, d]⟩ x 0x00000000#32 h (.inl rfl) hacc = sumLead c n d x := by
  funext i
  obtain ⟨p, q, rfl⟩ : ∃ (p : Fin n) (q : Fin d), i = ix2 p q := ⟨i 0, i 1, eq_ix2 i⟩
  refine (Ideal.multiReduction_add_single x 0x00000000#32 h (.inl rfl) hacc (ix2 p q)).trans ?_
  refine Finset.sum_congr rfl fun k _ => congrArg x (funext fun a => Fin.ext ?_)
  match a with
  | ⟨0, _⟩ => rfl
  | ⟨1, _⟩ => rfl
  | ⟨2, _⟩ => rfl

/-- The product with the transposed weight into a zero accumulator, plus the bias as a [1, N] row broadcast down the
    rows, is the affine map. -/
theorem kernel_dense (n K N : ℕ) {φ₁ φ₂ : FTy} (X : FVec Ideal ⟨2, ![n, K]⟩ φ₁) (W : FVec Ideal ⟨2, ![N, K]⟩ φ₂)
    (b : FVec Ideal ⟨1, ![N]⟩ .f32)
    (hT : (⟨2, ![N, K]⟩ : Shape).Transposes [1, 0] ⟨2, ![K, N]⟩)
    (hS : (⟨1, ![N]⟩ : Shape).ShapeCasts ⟨2, ![1, N]⟩) (hB : (⟨2, ![1, N]⟩ : Shape).Broadcasts ⟨2, ![n, N]⟩) :
    addf (matmul (DotDims.plain n K N) none X (transpose ⟨2, ![K, N]⟩ [1, 0] W hT) (constant ⟨2, ![n, N]⟩ .f32 0x00000000#32))
        (broadcastTo ⟨2, ![n, N]⟩ (shapeCast ⟨2, ![1, N]⟩ b hS) hB)
      = dense n K N X W b := by
  funext i
  obtain ⟨p, q, rfl⟩ : ∃ (p : Fin n) (q : Fin N), i = ix2 p q := ⟨i 0, i 1, eq_ix2 i⟩
  show FloatOps.matmul (DotDims.plain n K N) none X (transpose ⟨2, ![K, N]⟩ [1, 0] W hT) (constant ⟨2, ![n, N]⟩ .f32 0x00000000#32) (ix2 p q)
      + broadcastTo ⟨2, ![n, N]⟩ (shapeCast ⟨2, ![1, N]⟩ b hS) hB (ix2 p q)
    = (∑ d : Fin K, X (ix2 p d) * W (ix2 q d)) + b (ix1 q)
  rw [matmul_zero_ix2, broadcastTo_1b_ab_apply, shapeCast_a_1a_apply]
  refine congrArg (· + b (ix1 q)) (Finset.sum_congr rfl fun k _ => ?_)
  rw [transpose_ix2_apply]

/-- A maximum with the zero word splat is the relu. -/
theorem kernel_relu (s : Shape) (X : FVec Ideal s .f32) :
    maximumf X (broadcast s (Scalar.ofBits .f32 0x00000000#32)) = relu s X := rfl

/-- A product with a splat word on the left is the scaling. -/
theorem kernel_scale (s : Shape) (w : BitVec 32) (b : FVec Ideal s .f32) :
    mulf (broadcast s (Scalar.ofBits (F := Ideal) .f32 w)) b = scale s w b := rfl

/-- A concatenation of two arrays along axis 1 (either program spells it this way) is the join along the columns. -/
theorem concat_cols (n a b c : ℕ) (hc : c = a + b) (X : (⟨2, ![n, a]⟩ : Shape).Idx → EReal)
    (Y : (⟨2, ![n, b]⟩ : Shape).Idx → EReal)
    (h : Shape.Concatenates [(⟨2, ![n, a]⟩ : Shape), ⟨2, ![n, b]⟩] ⟨2, ![n, c]⟩ 1) :
    concatenate ⟨2, ![n, c]⟩ 1 [⟨⟨2, ![n, a]⟩, X⟩, ⟨⟨2, ![n, b]⟩, Y⟩] h = sideBySide n a b c hc X Y := by
  funext i
  obtain ⟨p, q, rfl⟩ : ∃ (p : Fin n) (q : Fin c), i = ix2 p q := ⟨i 0, i 1, eq_ix2 i⟩
  unfold sideBySide
  split
  · next hq =>
    exact concatenate_pair_apply_left 1 X Y h (ix2 p q) rfl (ix2 p ⟨q.val, hq⟩)
      (fun e => match e with | ⟨0, _⟩ => rfl | ⟨1, _⟩ => rfl)
  · next hq =>
    have hq' : a ≤ q.val := Nat.le_of_not_lt hq
    refine concatenate_pair_apply_right 1 X Y h (ix2 p q) rfl rfl (ix2 p ⟨q.val - a, by have := q.isLt; omega⟩)
      (fun e he => match e, he with
        | ⟨0, _⟩, _ => rfl
        | ⟨1, _⟩, he => absurd rfl he) ?_
    show (q.val - a) + a = q.val
    omega

/-! ## The host's spellings -/

/-- A scalar constant broadcast to a shape reads the word's value at every index. -/
theorem host_splat (t : Shape) (w : BitVec 32) (h : (⟨0, ![]⟩ : Shape).BroadcastsInDim t ![]) (i : t.Idx) :
    broadcastInDim t ![] h (constant (F := Ideal) ⟨0, ![]⟩ .f32 w) i = Ideal.ofBits .f32 w :=
  (broadcastInDim_apply _ h (constant (F := Ideal) ⟨0, ![]⟩ .f32 w) i ix0 (fun a => a.elim0)).trans rfl

/-- A maximum with the broadcast zero constant is the relu. -/
theorem host_relu (t : Shape) (X : FVec Ideal t .f32) (h : (⟨0, ![]⟩ : Shape).BroadcastsInDim t ![]) :
    maximumf X (broadcastInDim t ![] h (constant (F := Ideal) ⟨0, ![]⟩ .f32 0x00000000#32)) = relu t X :=
  funext fun i => congrArg (max (X i)) (host_splat t _ h i)

/-- A product with a broadcast constant on the left is the scaling. -/
theorem host_scale (t : Shape) (w : BitVec 32) (b : FVec Ideal t .f32) (h : (⟨0, ![]⟩ : Shape).BroadcastsInDim t ![]) :
    mulf (broadcastInDim t ![] h (constant (F := Ideal) ⟨0, ![]⟩ .f32 w)) b = scale t w b :=
  funext fun i => congrArg (· * b i) (host_splat t w h i)

/-- A bias broadcast first to a [1, N] row and then down the rows reads the bias at the column. -/
theorem host_bias (n N : ℕ) (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![n, N]⟩ ![0, 1]) (p : Fin n) (q : Fin N) :
    broadcastInDim ⟨2, ![n, N]⟩ ![0, 1] h2 (broadcastInDim ⟨2, ![1, N]⟩ ![1] h1 b) (ix2 p q) = b (ix1 q) := by
  refine (broadcastInDim_apply _ h2 _ (ix2 p q) (ix2 (0 : Fin 1) q) (fun a => ?_)).trans ?_
  · match a with
    | ⟨0, _⟩ => show 0 = if (1 : ℕ) = 1 then 0 else p.val; rw [if_pos rfl]
    | ⟨1, _⟩ =>
      show q.val = if N = 1 then 0 else q.val
      split
      · have := q.isLt; omega
      · rfl
  · refine broadcastInDim_apply _ h1 b (ix2 (0 : Fin 1) q) (ix1 q) (fun a => ?_)
    match a with
    | ⟨0, _⟩ =>
      show q.val = if N = 1 then 0 else q.val
      split
      · have := q.isLt; omega
      · rfl

/-- A dot_general with the transposed weight plus the bias broadcast in two steps is the affine map. -/
theorem host_dense (n K N : ℕ) (X : FVec Ideal ⟨2, ![n, K]⟩ .f32) (W : FVec Ideal ⟨2, ![N, K]⟩ .f32)
    (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral (DotDims.plain n K N) none X (transpose ⟨2, ![K, N]⟩ [1, 0] W hT))
        (broadcastInDim ⟨2, ![n, N]⟩ ![0, 1] h2 (broadcastInDim ⟨2, ![1, N]⟩ ![1] h1 b))
      = dense n K N X W b := by
  funext i
  obtain ⟨p, q, rfl⟩ : ∃ (p : Fin n) (q : Fin N), i = ix2 p q := ⟨i 0, i 1, eq_ix2 i⟩
  show FloatOps.dotGeneral (DotDims.plain n K N) none .single X (transpose ⟨2, ![K, N]⟩ [1, 0] W hT) (ix2 p q)
      + broadcastInDim ⟨2, ![n, N]⟩ ![0, 1] h2 (broadcastInDim ⟨2, ![1, N]⟩ ![1] h1 b) (ix2 p q)
    = (∑ d : Fin K, X (ix2 p d) * W (ix2 q d)) + b (ix1 q)
  rw [dotGeneral_ix2, host_bias]
  refine congrArg (· + b (ix1 q)) (Finset.sum_congr rfl fun k _ => ?_)
  rw [transpose_ix2_apply]

/-! ## Taking a family of rows -/

/-- The rows e 0, e 1, … of a matrix, as a matrix. -/
def rows (n' n d : ℕ) (e : Fin n' → Fin n) (X : (⟨2, ![n, d]⟩ : Shape).Idx → EReal) : (⟨2, ![n', d]⟩ : Shape).Idx → EReal :=
  fun y => X (ix2 (e (y 0)) (y 1))

/-- The same rows of each slice of a [c, n, d] array. -/
def rows3 (c n' n d : ℕ) (e : Fin n' → Fin n) (X : (⟨3, ![c, n, d]⟩ : Shape).Idx → EReal) :
    (⟨3, ![c, n', d]⟩ : Shape).Idx → EReal :=
  fun y => X (ix3 (y 0) (e (y 1)) (y 2))

variable (n' n : ℕ) (e : Fin n' → Fin n)

theorem sumLead_rows (c d : ℕ) (x : (⟨3, ![c, n, d]⟩ : Shape).Idx → EReal) :
    sumLead c n' d (rows3 c n' n d e x) = rows n' n d e (sumLead c n d x) := rfl

theorem dense_rows (K N : ℕ) (X : (⟨2, ![n, K]⟩ : Shape).Idx → EReal) (W : (⟨2, ![N, K]⟩ : Shape).Idx → EReal)
    (b : (⟨1, ![N]⟩ : Shape).Idx → EReal) :
    dense n' K N (rows n' n K e X) W b = rows n' n N e (dense n K N X W b) := rfl

theorem relu_rows (d : ℕ) (X : (⟨2, ![n, d]⟩ : Shape).Idx → EReal) :
    relu ⟨2, ![n', d]⟩ (rows n' n d e X) = rows n' n d e (relu ⟨2, ![n, d]⟩ X) := rfl

theorem sideBySide_rows (a b c : ℕ) (hc : c = a + b) (X : (⟨2, ![n, a]⟩ : Shape).Idx → EReal)
    (Y : (⟨2, ![n, b]⟩ : Shape).Idx → EReal) :
    sideBySide n' a b c hc (rows n' n a e X) (rows n' n b e Y) = rows n' n c e (sideBySide n a b c hc X Y) := rfl

end Cert.Lib.RowLayers

end
-- ==== Proof.Network.lean ====
/-
  The point network as one function of whole arrays.

  Each of n points has a signal row of 256 entries and eight component rows of 256 entries. Per point:

    s    = the sum of the eight component rows
    r    = (s · Wmᵀ + 8 · bm) · Wuᵀ + bu                     the message, mapped and updated
    h0   = relu ([signal, r] · W0ᵀ + b0)                      on the 512 joined entries, 132 hidden units
    out  = (relu (relu (h0 · W1ᵀ + b1) · W2ᵀ + b2)) · W3ᵀ + b3

  with every weight stored [out, in], 8 the value of the float word 0x41000000 and relu the maximum with the value of
  the zero word. The number of points n is a parameter: the same formula is read on all the points or on a block of
  them, and since every layer works row by row, a block of rows of the result is the result on that block of rows.
-/
import proofs.«137845_j1125281431922_1_alg».proof.Proof.LibRowLayers

noncomputable section

namespace Cert.Network

open Idealize.ShloMosaic Cert.Lib.RowLayers

variable (n : ℕ)

/-- The first hidden layer: the summed components through the message and update maps, joined to the signal, through
    the first affine map and relu. -/
def hidden0 (signal : (⟨2, ![n, 256]⟩ : Shape).Idx → EReal) (comp : (⟨3, ![8, n, 256]⟩ : Shape).Idx → EReal)
    (Wm : (⟨2, ![256, 256]⟩ : Shape).Idx → EReal) (bm : (⟨1, ![256]⟩ : Shape).Idx → EReal)
    (Wu : (⟨2, ![256, 256]⟩ : Shape).Idx → EReal) (bu : (⟨1, ![256]⟩ : Shape).Idx → EReal)
    (W0 : (⟨2, ![132, 512]⟩ : Shape).Idx → EReal) (b0 : (⟨1, ![132]⟩ : Shape).Idx → EReal) :
    (⟨2, ![n, 132]⟩ : Shape).Idx → EReal :=
  relu ⟨2, ![n, 132]⟩ (dense n 512 132
    (sideBySide n 256 256 512 rfl signal
      (dense n 256 256 (dense n 256 256 (sumLead 8 n 256 comp) Wm (scale ⟨1, ![256]⟩ 0x41000000#32 bm)) Wu bu))
    W0 b0)

/-- The remaining layers, from the first hidden layer's values. -/
def tail (h0 : (⟨2, ![n, 132]⟩ : Shape).Idx → EReal)
    (W1 : (⟨2, ![132, 132]⟩ : Shape).Idx → EReal) (b1 : (⟨1, ![132]⟩ : Shape).Idx → EReal)
    (W2 : (⟨2, ![132, 132]⟩ : Shape).Idx → EReal) (b2 : (⟨1, ![132]⟩ : Shape).Idx → EReal)
    (W3 : (⟨2, ![256, 132]⟩ : Shape).Idx → EReal) (b3 : (⟨1, ![256]⟩ : Shape).Idx → EReal) :
    (⟨2, ![n, 256]⟩ : Shape).Idx → EReal :=
  dense n 132 256 (relu ⟨2, ![n, 132]⟩ (dense n 132 132 (relu ⟨2, ![n, 132]⟩ (dense n 132 132 h0 W1 b1)) W2 b2)) W3 b3

/-- The whole network on n points. -/
def out (signal : (⟨2, ![n, 256]⟩ : Shape).Idx → EReal) (comp : (⟨3, ![8, n, 256]⟩ : Shape).Idx → EReal)
    (Wm : (⟨2, ![256, 256]⟩ : Shape).Idx → EReal) (bm : (⟨1, ![256]⟩ : Shape).Idx → EReal)
    (Wu : (⟨2, ![256, 256]⟩ : Shape).Idx → EReal) (bu : (⟨1, ![256]⟩ : Shape).Idx → EReal)
    (W0 : (⟨2, ![132, 512]⟩ : Shape).Idx → EReal) (b0 : (⟨1, ![132]⟩ : Shape).Idx → EReal)
    (W1 : (⟨2, ![132, 132]⟩ : Shape).Idx → EReal) (b1 : (⟨1, ![132]⟩ : Shape).Idx → EReal)
    (W2 : (⟨2, ![132, 132]⟩ : Shape).Idx → EReal) (b2 : (⟨1, ![132]⟩ : Shape).Idx → EReal)
    (W3 : (⟨2, ![256, 132]⟩ : Shape).Idx → EReal) (b3 : (⟨1, ![256]⟩ : Shape).Idx → EReal) :
    (⟨2, ![n, 256]⟩ : Shape).Idx → EReal :=
  tail n (hidden0 n signal comp Wm bm Wu bu W0 b0) W1 b1 W2 b2 W3 b3

/-- The network on a family of points is that family of rows of the network on all the points: every layer computes a
    row from the same row. -/
theorem out_rows (n' : ℕ) (e : Fin n' → Fin n)
    (signal : (⟨2, ![n, 256]⟩ : Shape).Idx → EReal) (comp : (⟨3, ![8, n, 256]⟩ : Shape).Idx → EReal)
    (Wm : (⟨2, ![256, 256]⟩ : Shape).Idx → EReal) (bm : (⟨1, ![256]⟩ : Shape).Idx → EReal)
    (Wu : (⟨2, ![256, 256]⟩ : Shape).Idx → EReal) (bu : (⟨1, ![256]⟩ : Shape).Idx → EReal)
    (W0 : (⟨2, ![132, 512]⟩ : Shape).Idx → EReal) (b0 : (⟨1, ![132]⟩ : Shape).Idx → EReal)
    (W1 : (⟨2, ![132, 132]⟩ : Shape).Idx → EReal) (b1 : (⟨1, ![132]⟩ : Shape).Idx → EReal)
    (W2 : (⟨2, ![132, 132]⟩ : Shape).Idx → EReal) (b2 : (⟨1, ![132]⟩ : Shape).Idx → EReal)
    (W3 : (⟨2, ![256, 132]⟩ : Shape).Idx → EReal) (b3 : (⟨1, ![256]⟩ : Shape).Idx → EReal) :
    out n' (rows n' n 256 e signal) (rows3 8 n' n 256 e comp) Wm bm Wu bu W0 b0 W1 b1 W2 b2 W3 b3
      = rows n' n 256 e (out n signal comp Wm bm Wu bu W0 b0 W1 b1 W2 b2 W3 b3) := by
  unfold out tail hidden0
  rw [sumLead_rows, dense_rows, dense_rows, sideBySide_rows, dense_rows, relu_rows, dense_rows, relu_rows, dense_rows,
    relu_rows, dense_rows]

end Cert.Network

end
-- ==== Proof.KernelValue.lean ====
/-
  The kernel's body is the point network on the block's 512 points.

  The body computes its stored value in three steps: the first hidden layer from the eight loads that feed it, the
  second layer's weight (a change of format only), and the remaining layers. Each matrix product is a product with the
  transposed weight into a zero accumulator, each bias a [1, N] row broadcast down the rows, each relu a maximum with a
  zero splat, and the sum of the components a reduction over the leading axis: the vector unit's spellings of the
  network's layers. The products' dimension records are the plain M x K by K x N ones.
-/
import proofs.«137845_j1125281431922_1_alg».proof.Proof.Gen.KernelIdeal.Skeleton
import proofs.«137845_j1125281431922_1_alg».proof.Proof.Network

noncomputable section

namespace Cert.KernelIdeal.Body

open Idealize.ShloMosaic Cert.KernelIdeal Cert.KernelIdeal.Gen Cert.Lib.RowLayers Cert.Network

theorem dot_256_256 : dot_S512x256_S256x256_S512x256_1_0_0_1_n_n = DotDims.plain 512 256 256 := rfl
theorem dot_512_132 : dot_S512x512_S512x132_S512x132_1_0_0_1_n_n = DotDims.plain 512 512 132 := rfl
theorem dot_132_132 : dot_S512x132_S132x132_S512x132_1_0_0_1_n_n = DotDims.plain 512 132 132 := rfl
theorem dot_132_256 : dot_S512x132_S132x256_S512x256_1_0_0_1_n_n = DotDims.plain 512 132 256 := rfl

/-- The second layer's weight reaches the product unchanged: a change of float format is the identity. -/
theorem weight_eq (v35 : Vec Ideal S132x132 .f32) : k0_pay3 (F := Ideal) v35 = v35 := rfl

/-- The first hidden layer of the block's points. -/
theorem hidden0_eq (v0 : Vec Ideal S8x512x256 .f32) (v2 : Vec Ideal S256x256 .f32) (v4 : Vec Ideal S256 .f32)
    (v13 : Vec Ideal S256x256 .f32) (v15 : Vec Ideal S256 .f32) (v22 : Vec Ideal S512x256 .f32)
    (v24 : Vec Ideal S132x512 .f32) (v26 : Vec Ideal S132 .f32) :
    k0_pay2 (F := Ideal) v0 v2 v4 v13 v15 v22 v24 v26 = hidden0 512 v22 v0 v2 v4 v13 v15 v24 v26 := by
  unfold k0_pay2 hidden0
  simp only [dot_256_256, dot_512_132, kernel_scale, concat_cols 512 256 256 512 rfl, kernel_relu, truncf_id]
  rw [kernel_dense, kernel_dense, kernel_dense, kernel_sumLead]

/-- The remaining layers of the block's points. -/
theorem tail_eq (v34 : FVec Ideal S512x132 .f32) (v36 : FVec Ideal S132x132 .bf16) (v37 : Vec Ideal S132 .f32)
    (v46 : Vec Ideal S132x132 .f32) (v48 : Vec Ideal S132 .f32) (v57 : Vec Ideal S256x132 .f32) (v59 : Vec Ideal S256 .f32) :
    k0_pay1 (F := Ideal) v34 v36 v37 v46 v48 v57 v59 = tail 512 v34 v36 v37 v46 v48 v57 v59 := by
  unfold k0_pay1 tail
  simp only [dot_132_132, dot_132_256, kernel_relu, truncf_id]
  rw [kernel_dense, kernel_dense, kernel_dense]

/-- The stored value is the network on the block's points, as a function of the body's fifteen loads. -/
theorem stored_eq (v0 : Vec Ideal S8x512x256 .f32) (v2 : Vec Ideal S256x256 .f32) (v4 : Vec Ideal S256 .f32)
    (v13 : Vec Ideal S256x256 .f32) (v15 : Vec Ideal S256 .f32) (v22 : Vec Ideal S512x256 .f32)
    (v24 : Vec Ideal S132x512 .f32) (v26 : Vec Ideal S132 .f32) (v35 : Vec Ideal S132x132 .f32) (v37 : Vec Ideal S132 .f32)
    (v46 : Vec Ideal S132x132 .f32) (v48 : Vec Ideal S132 .f32) (v57 : Vec Ideal S256x132 .f32) (v59 : Vec Ideal S256 .f32) :
    k0_pay1 (F := Ideal) (k0_pay2 v0 v2 v4 v13 v15 v22 v24 v26) (k0_pay3 v35) v37 v46 v48 v57 v59
      = out 512 v22 v0 v2 v4 v13 v15 v24 v26 v35 v37 v46 v48 v57 v59 := by
  rw [tail_eq, hidden0_eq, weight_eq]
  rfl

end Cert.KernelIdeal.Body

end
-- ==== Proof.Blocks.lean ====
/-
  From the blocks to the whole array.

  The grid has 128 points; point t stages rows 512 t … 512 t + 511 of the signal and of each of the eight component
  slices, every weight and bias whole, and writes back rows 512 t … 512 t + 511 of the result. What it writes back is
  the network on those 512 points, which is that block of rows of the network on all 65536 points, because the network
  computes each row from the same row. The 128 blocks tile the result array, so after the run the array is the network
  on all the points.
-/
import proofs.«137845_j1125281431922_1_alg».proof.Proof.Gen.KernelIdeal.Value
import proofs.«137845_j1125281431922_1_alg».proof.Proof.KernelValue

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowLayers Cert.Network

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The network on all the points, of the argument arrays as launched. -/
def whole (c : Dev nD) : S65536x256.Idx → EReal :=
  out 65536
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))

/-- Row r of point t's block is row 512 t + r of the array. -/
def blockRow (t : Fin cfg0.N) : Fin 512 → Fin 65536 :=
  fun r => ⟨t.val * 512 + r.val, by have ht : t.val < 128 := t.isLt; have hr := r.isLt; omega⟩

/-! ## The index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = t.val
    ∧ win0_1.index t (2 : Fin 3) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx5 : ∀ t : Fin cfg0.N, win0_5.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx9 : ∀ t : Fin cfg0.N, win0_9.index t (0 : Fin 1) = 0 :=
  (by decide +kernel : ∀ t : Fin grid0.N, _)
theorem idx11 : ∀ t : Fin cfg0.N, win0_11.index t (0 : Fin 1) = 0 :=
  (by decide +kernel : ∀ t : Fin grid0.N, _)
theorem idx13 : ∀ t : Fin cfg0.N, win0_13.index t (0 : Fin 1) = 0 :=
  (by decide +kernel : ∀ t : Fin grid0.N, _)

/-! ## Each window's block at a point, read off its array -/

/-- The signal's block at point t is its rows 512 t …. -/
theorem blk0 (c : Dev nD) (t : Fin cfg0.N) :
    (iblk m c 0 t : S512x256.Idx → EReal) = rows 512 65536 256 (blockRow t) (m ((c : Thread nD τ).loc main_arg0)) := by
  obtain ⟨e0, e1⟩ := idx0 t
  funext y
  show V m c main_arg0 (((cfg0.win 0).blk t).view.emb y)
    = m ((c : Thread nD τ).loc main_arg0) (ix2 (blockRow t (y 0)) (y 1))
  have h : ((cfg0.win 0).blk t).view.emb y = ix2 (blockRow t (y 0)) (y 1) := by
    funext a; apply Fin.ext
    match a with
    | ⟨0, _⟩ => show win0_0.index t (0 : Fin 2) * 512 + 1 * (y 0).val = t.val * 512 + (y 0).val; omega
    | ⟨1, _⟩ => show win0_0.index t (1 : Fin 2) * 256 + 1 * (y 1).val = (y 1).val; omega
  rw [h]
  rfl

/-- The components' block at point t is the same rows of each of the eight slices. -/
theorem blk1 (c : Dev nD) (t : Fin cfg0.N) :
    (iblk m c 1 t : S8x512x256.Idx → EReal)
      = rows3 8 512 65536 256 (blockRow t) (m ((c : Thread nD τ).loc main_arg1)) := by
  obtain ⟨e0, e1, e2⟩ := idx1 t
  funext y
  show V m c main_arg1 (((cfg0.win 1).blk t).view.emb y)
    = m ((c : Thread nD τ).loc main_arg1) (ix3 (y 0) (blockRow t (y 1)) (y 2))
  have h : ((cfg0.win 1).blk t).view.emb y = ix3 (y 0) (blockRow t (y 1)) (y 2) := by
    funext a; apply Fin.ext
    match a with
    | ⟨0, _⟩ => show win0_1.index t (0 : Fin 3) * 8 + 1 * (y 0).val = (y 0).val; omega
    | ⟨1, _⟩ => show win0_1.index t (1 : Fin 3) * 512 + 1 * (y 1).val = t.val * 512 + (y 1).val; omega
    | ⟨2, _⟩ => show win0_1.index t (2 : Fin 3) * 256 + 1 * (y 2).val = (y 2).val; omega
  rw [h]
  rfl

/-! Every weight and bias is staged whole: its one block is the array. -/

theorem blk2 (c : Dev nD) (t : Fin cfg0.N) :
    (iblk m c 2 t : S256x256.Idx → EReal) = m ((c : Thread nD τ).loc main_arg2) := by
  obtain ⟨e0, e1⟩ := idx2 t
  funext y
  show V m c main_arg2 (((cfg0.win 2).blk t).view.emb y) = m ((c : Thread nD τ).loc main_arg2) y
  have h : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 256 + 1 * (y 1).val = (y 1).val; omega
  rw [h]

theorem blk4 (c : Dev nD) (t : Fin cfg0.N) :
    (iblk m c 4 t : S256x256.Idx → EReal) = m ((c : Thread nD τ).loc main_arg4) := by
  obtain ⟨e0, e1⟩ := idx4 t
  funext y
  show V m c main_arg4 (((cfg0.win 4).blk t).view.emb y) = m ((c : Thread nD τ).loc main_arg4) y
  have h : ((cfg0.win 4).blk t).view.emb y = y := by
    funext a; apply Fin.ext
    match a with
    | ⟨0, _⟩ => show win0_4.index t (0 : Fin 2) * 256 + 1 * (y 0).val = (y 0).val; omega
    | ⟨1, _⟩ => show win0_4.index t (1 : Fin 2) * 256 + 1 * (y 1).val = (y 1).val; omega
  rw [h]

theorem blk6 (c : Dev nD) (t : Fin cfg0.N) :
    (iblk m c 6 t : S132x512.Idx → EReal) = m ((c : Thread nD τ).loc main_arg6) := by
  obtain ⟨e0, e1⟩ := idx6 t
  funext y
  show V m c main_arg6 (((cfg0.win 6).blk t).view.emb y) = m ((c : Thread nD τ).loc main_arg6) y
  have h : ((cfg0.win 6).blk t).view.emb y = y := by
    funext a; apply Fin.ext
    match a with
    | ⟨0, _⟩ => show win0_6.index t (0 : Fin 2) * 132 + 1 * (y 0).val = (y 0).val; omega
    | ⟨1, _⟩ => show win0_6.index t (1 : Fin 2) * 512 + 1 * (y 1).val = (y 1).val; omega
  rw [h]

theorem blk8 (c : Dev nD) (t : Fin cfg0.N) :
    (iblk m c 8 t : S132x132.Idx → EReal) = m ((c : Thread nD τ).loc main_arg8) := by
  obtain ⟨e0, e1⟩ := idx8 t
  funext y
  show V m c main_arg8 (((cfg0.win 8).blk t).view.emb y) = m ((c : Thread nD τ).loc main_arg8) y
  have h : ((cfg0.win 8).blk t).view.emb y = y := by
    funext a; apply Fin.ext
    match a with
    | ⟨0, _⟩ => show win0_8.index t (0 : Fin 2) * 132 + 1 * (y 0).val = (y 0).val; omega
    | ⟨1, _⟩ => show win0_8.index t (1 : Fin 2) * 132 + 1 * (y 1).val = (y 1).val; omega
  rw [h]

theorem blk10 (c : Dev nD) (t : Fin cfg0.N) :
    (iblk m c 10 t : S132x132.Idx → EReal) = m ((c : Thread nD τ).loc main_arg10) := by
  obtain ⟨e0, e1⟩ := idx10 t
  funext y
  show V m c main_arg10 (((cfg0.win 10).blk t).view.emb y) = m ((c : Thread nD τ).loc main_arg10) y
  have h : ((cfg0.win 10).blk t).view.emb y = y := by
    funext a; apply Fin.ext
    match a with
    | ⟨0, _⟩ => show win0_10.index t (0 : Fin 2) * 132 + 1 * (y 0).val = (y 0).val; omega
    | ⟨1, _⟩ => show win0_10.index t (1 : Fin 2) * 132 + 1 * (y 1).val = (y 1).val; omega
  rw [h]

theorem blk12 (c : Dev nD) (t : Fin cfg0.N) :
    (iblk m c 12 t : S256x132.Idx → EReal) = m ((c : Thread nD τ).loc main_arg12) := by
  obtain ⟨e0, e1⟩ := idx12 t
  funext y
  show V m c main_arg12 (((cfg0.win 12).blk t).view.emb y) = m ((c : Thread nD τ).loc main_arg12) y
  have h : ((cfg0.win 12).blk t).view.emb y = y := by
    funext a; apply Fin.ext
    match a with
    | ⟨0, _⟩ => show win0_12.index t (0 : Fin 2) * 256 + 1 * (y 0).val = (y 0).val; omega
    | ⟨1, _⟩ => show win0_12.index t (1 : Fin 2) * 132 + 1 * (y 1).val = (y 1).val; omega
  rw [h]

theorem blk3 (c : Dev nD) (t : Fin cfg0.N) :
    (iblk m c 3 t : S256.Idx → EReal) = m ((c : Thread nD τ).loc main_arg3) := by
  have e0 := idx3 t
  funext y
  show V m c main_arg3 (((cfg0.win 3).blk t).view.emb y) = m ((c : Thread nD τ).loc main_arg3) y
  have h : ((cfg0.win 3).blk t).view.emb y = y := by
    funext a; apply Fin.ext
    match a with
    | ⟨0, _⟩ => show win0_3.index t (0 : Fin 1) * 256 + 1 * (y 0).val = (y 0).val; omega
  rw [h]

theorem blk5 (c : Dev nD) (t : Fin cfg0.N) :
    (iblk m c 5 t : S256.Idx → EReal) = m ((c : Thread nD τ).loc main_arg5) := by
  have e0 := idx5 t
  funext y
  show V m c main_arg5 (((cfg0.win 5).blk t).view.emb y) = m ((c : Thread nD τ).loc main_arg5) y
  have h : ((cfg0.win 5).blk t).view.emb y = y := by
    funext a; apply Fin.ext
    match a with
    | ⟨0, _⟩ => show win0_5.index t (0 : Fin 1) * 256 + 1 * (y 0).val = (y 0).val; omega
  rw [h]

theorem blk7 (c : Dev nD) (t : Fin cfg0.N) :
    (iblk m c 7 t : S132.Idx → EReal) = m ((c : Thread nD τ).loc main_arg7) := by
  have e0 := idx7 t
  funext y
  show V m c main_arg7 (((cfg0.win 7).blk t).view.emb y) = m ((c : Thread nD τ).loc main_arg7) y
  have h : ((cfg0.win 7).blk t).view.emb y = y := by
    funext a; apply Fin.ext
    match a with
    | ⟨0, _⟩ => show win0_7.index t (0 : Fin 1) * 132 + 1 * (y 0).val = (y 0).val; omega
  rw [h]

theorem blk9 (c : Dev nD) (t : Fin cfg0.N) :
    (iblk m c 9 t : S132.Idx → EReal) = m ((c : Thread nD τ).loc main_arg9) := by
  have e0 := idx9 t
  funext y
  show V m c main_arg9 (((cfg0.win 9).blk t).view.emb y) = m ((c : Thread nD τ).loc main_arg9) y
  have h : ((cfg0.win 9).blk t).view.emb y = y := by
    funext a; apply Fin.ext
    match a with
    | ⟨0, _⟩ => show win0_9.index t (0 : Fin 1) * 132 + 1 * (y 0).val = (y 0).val; omega
  rw [h]

theorem blk11 (c : Dev nD) (t : Fin cfg0.N) :
    (iblk m c 11 t : S132.Idx → EReal) = m ((c : Thread nD τ).loc main_arg11) := by
  have e0 := idx11 t
  funext y
  show V m c main_arg11 (((cfg0.win 11).blk t).view.emb y) = m ((c : Thread nD τ).loc main_arg11) y
  have h : ((cfg0.win 11).blk t).view.emb y = y := by
    funext a; apply Fin.ext
    match a with
    | ⟨0, _⟩ => show win0_11.index t (0 : Fin 1) * 132 + 1 * (y 0).val = (y 0).val; omega
  rw [h]

theorem blk13 (c : Dev nD) (t : Fin cfg0.N) :
    (iblk m c 13 t : S256.Idx → EReal) = m ((c : Thread nD τ).loc main_arg13) := by
  have e0 := idx13 t
  funext y
  show V m c main_arg13 (((cfg0.win 13).blk t).view.emb y) = m ((c : Thread nD τ).loc main_arg13) y
  have h : ((cfg0.win 13).blk t).view.emb y = y := by
    funext a; apply Fin.ext
    match a with
    | ⟨0, _⟩ => show win0_13.index t (0 : Fin 1) * 256 + 1 * (y 0).val = (y 0).val; omega
  rw [h]

/-! ## What a point writes back -/

/-- Point t writes back block t of the network on all the points. -/
theorem flushed_eq (c : Dev nD) (t : Fin cfg0.N) :
    (dats m 0 c).flushed 14 t = ((cfg0.win 14).blk t).view.read (Elt Ideal) (whole m c) := by
  rw [Value.flushed14]
  unfold out0_14
  rw [View.canon_unit_zero hz2]
  simp only [View.ld_unit_zero (S := S512x256) hz2, View.ld_unit_zero (S := S8x512x256) hz3,
    View.ld_unit_zero (S := S256x256) hz2, View.ld_unit_zero (S := S256) hz1, View.ld_unit_zero (S := S132x512) hz2,
    View.ld_unit_zero (S := S132) hz1, View.ld_unit_zero (S := S132x132) hz2, View.ld_unit_zero (S := S256x132) hz2]
  rw [Body.stored_eq (iblk m c 1 t) (iblk m c 2 t) (iblk m c 3 t) (iblk m c 4 t) (iblk m c 5 t) (iblk m c 0 t) (iblk m c 6 t) (iblk m c 7 t) (iblk m c 8 t) (iblk m c 9 t) (iblk m c 10 t) (iblk m c 11 t) (iblk m c 12 t) (iblk m c 13 t)]
  rw [blk0 m c t, blk1 m c t, blk2 m c t, blk3 m c t, blk4 m c t, blk5 m c t, blk6 m c t, blk7 m c t, blk8 m c t,
    blk9 m c t, blk10 m c t, blk11 m c t, blk12 m c t, blk13 m c t]
  rw [out_rows]
  obtain ⟨e0, e1⟩ := idx14 t
  funext j
  show whole m c (ix2 (blockRow t (j 0)) (j 1)) = whole m c (((cfg0.win 14).blk t).view.emb j)
  have h : ((cfg0.win 14).blk t).view.emb j = ix2 (blockRow t (j 0)) (j 1) := by
    funext a; apply Fin.ext
    match a with
    | ⟨0, _⟩ => show win0_14.index t (0 : Fin 2) * 512 + 1 * (j 0).val = t.val * 512 + (j 0).val; omega
    | ⟨1, _⟩ => show win0_14.index t (1 : Fin 2) * 256 + 1 * (j 1).val = (j 1).val; omega
  rw [h]
  rfl

/-! ## The blocks tile the array -/

/-- An index is in point t's block iff each coordinate is in the block's range on its axis. -/
theorem mem_blk (t : Fin cfg0.N) (i : S65536x256.Idx) :
    i ∈ ((cfg0.win 14).blk t).view.set ↔ ∀ a : Fin 2, win0_14.index t a * S512x256.size a ≤ (i a).val
      ∧ (i a).val < win0_14.index t a * S512x256.size a + S512x256.size a := by
  show i ∈ ((View.whole main_v0).slice (win0_14.rect t)).set ↔ _
  rw [View.set_slice_whole, Rect.mem_set_unit]
  exact Iff.rfl

/-- Row p is in the block of point p / 512. -/
theorem cover (i : S65536x256.Idx) :
    ∃ t : Fin cfg0.N, (cfg0.win 14).flush t = true ∧ i ∈ ((cfg0.win 14).blk t).view.set := by
  have hi0 : (i 0).val < 65536 := (i 0).isLt
  have hi1 : (i 1).val < 256 := (i 1).isLt
  obtain ⟨t, ht⟩ : ∃ t : Fin cfg0.N, t.val = (i 0).val / 512 :=
    ⟨⟨(i 0).val / 512, by show (i 0).val / 512 < 128; omega⟩, rfl⟩
  obtain ⟨e0, e1⟩ := idx14 t
  refine ⟨t, flush0_14 t, ?_⟩
  rw [mem_blk]
  intro a
  match a with
  | ⟨0, _⟩ =>
    show win0_14.index t (0 : Fin 2) * 512 ≤ (i 0).val ∧ (i 0).val < win0_14.index t (0 : Fin 2) * 512 + 512
    omega
  | ⟨1, _⟩ =>
    show win0_14.index t (1 : Fin 2) * 256 ≤ (i 1).val ∧ (i 1).val < win0_14.index t (1 : Fin 2) * 256 + 256
    omega

/-- After the run the result array is the network on all the points. -/
theorem final (c : Dev nD) : (dats m 0 c).arrAt 14 cfg0.N = whole m c :=
  (dats m 0 c).arrAt_eq_of_cover 14 (whole m c) (fun t _ => flushed_eq m c t) cover

/-- The kernel's run, with the result array named. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.ReferenceValue.lean ====
/-
  The reference is the point network on all 65536 points.

  The reference computes the same layers on the host: each matrix product is a dot_general with the transposed weight,
  each bias is broadcast to a [1, N] row and then down the rows, each relu is a maximum with the broadcast zero constant,
  the factor 8 is a broadcast constant, and the sum of the components is a reduce over the leading axis from the zero
  constant — the host's spellings of the network's layers, at n = 65536.
-/
import proofs.«137845_j1125281431922_1_alg».proof.Proof.Gen.ReferenceIdeal.Read
import proofs.«137845_j1125281431922_1_alg».proof.Proof.Network

noncomputable section

namespace Cert.ReferenceIdeal.RefValue

open Idealize.ShloMosaic Idealize.ShloMosaic.ValueIdx Cert.ReferenceIdeal Cert.ReferenceIdeal.Gen Cert.Lib.RowLayers Cert.Network

theorem dot_256_256 : dot_S65536x256_S256x256_S65536x256_1_0_0_1_n_n = DotDims.plain 65536 256 256 := rfl
theorem dot_512_132 : dot_S65536x512_S512x132_S65536x132_1_0_0_1_n_n = DotDims.plain 65536 512 132 := rfl
theorem dot_132_132 : dot_S65536x132_S132x132_S65536x132_1_0_0_1_n_n = DotDims.plain 65536 132 132 := rfl
theorem dot_132_256 : dot_S65536x132_S132x256_S65536x256_1_0_0_1_n_n = DotDims.plain 65536 132 256 := rfl

/-- The host's sum over the eight components, from the zero constant, is the sum over the leading axis: the initial
    value is the value of the zero word, which is 0. -/
theorem host_sumLead (x1 : (⟨S8x65536x256, .f32⟩ : BufTy).Contents (Elt Ideal)) :
    Host.reduceAdd (F := Ideal) x1 (constant S_ .f32 0x00000000#32) reducesTo_S8x65536x256_S65536x256_d0 h_S_
      = sumLead 8 65536 256 x1 := by
  funext i
  obtain ⟨p, q, rfl⟩ : ∃ (p : Fin 65536) (q : Fin 256), i = ix2 p q := ⟨i 0, i 1, eq_ix2 i⟩
  refine (Read.val_main_v0_apply x1 (ix2 p q)).trans ?_
  rw [Read.val_main_cst_apply]
  show Ideal.ofBits .f32 0x00000000#32 + _ = _
  rw [Ideal.ofBits_zero_f32, zero_add]
  refine Finset.sum_congr rfl fun k _ => congrArg x1 (funext fun a => Fin.ext ?_)
  match a with
  | ⟨0, _⟩ => rfl
  | ⟨1, _⟩ => rfl
  | ⟨2, _⟩ => rfl

/-- The reference's result, as a function of its fourteen arguments, is the network on all the points. -/
theorem network_eq (x0 : (⟨S65536x256, .f32⟩ : BufTy).Contents (Elt Ideal))
    (x1 : (⟨S8x65536x256, .f32⟩ : BufTy).Contents (Elt Ideal))
    (x2 : (⟨S256x256, .f32⟩ : BufTy).Contents (Elt Ideal))
    (x3 : (⟨S256, .f32⟩ : BufTy).Contents (Elt Ideal))
    (x4 : (⟨S256x256, .f32⟩ : BufTy).Contents (Elt Ideal))
    (x5 : (⟨S256, .f32⟩ : BufTy).Contents (Elt Ideal))
    (x6 : (⟨S132x512, .f32⟩ : BufTy).Contents (Elt Ideal))
    (x7 : (⟨S132, .f32⟩ : BufTy).Contents (Elt Ideal))
    (x8 : (⟨S132x132, .f32⟩ : BufTy).Contents (Elt Ideal))
    (x9 : (⟨S132, .f32⟩ : BufTy).Contents (Elt Ideal))
    (x10 : (⟨S132x132, .f32⟩ : BufTy).Contents (Elt Ideal))
    (x11 : (⟨S132, .f32⟩ : BufTy).Contents (Elt Ideal))
    (x12 : (⟨S256x132, .f32⟩ : BufTy).Contents (Elt Ideal))
    (x13 : (⟨S256, .f32⟩ : BufTy).Contents (Elt Ideal)) :
    Read.val_main_v36 (F := Ideal) x0 x1 x2 x3 x4 x5 x6 x7 x8 x9 x10 x11 x12 x13 = out 65536 x0 x1 x2 x3 x4 x5 x6 x7 x8 x9 x10 x11 x12 x13 := by
  rw [← Read.val_main_v36_eq]
  rw [dot_256_256, dot_512_132, dot_132_132, dot_132_256]
  rw [host_sumLead, host_scale, host_dense, host_dense, concat_cols 65536 256 256 512 rfl, host_dense, host_relu,
    host_dense, host_relu, host_dense, host_relu, host_dense]
  rfl

end Cert.ReferenceIdeal.RefValue

end
-- ==== Proof.lean ====
/-
  A point network on 65536 points: a Pallas kernel against its jnp reference, equal at the ideal values.

  Per point the network sums eight component rows, maps the sum through two affine maps (the first bias counted eight
  times), joins the result to the point's signal row, and applies a four-layer perceptron with relu between the layers
  (Proof/Network.lean: one function 'out n' of whole arrays, for any number n of points).

  The kernel walks a grid of 128 points; each stages 512 rows of the signal and of the components and every weight
  whole, computes the network on those 512 rows with products on the matrix unit after a change of float format
  (the identity at the ideal values), and writes back 512 rows of the result (Proof/KernelValue.lean). Since every layer
  computes a row from the same row, that block is the block of the network on all the rows, and the 128 blocks tile the
  result (Proof/Blocks.lean). The reference computes the same layers on the host, on all the rows at once
  (Proof/ReferenceValue.lean). Both spellings of each layer are the same sums of the same products
  (Proof/LibRowLayers.lean, over Proof/LibPlainDot.lean): no factor moves across a sum, so the equality holds for every
  extended real and the finiteness of the inputs is not used.

  The three frames are the generated ones (the reference's is its generated run with the result dropped); the ideal
  pass rewrote nothing, so the idealization claim is trivial.
-/
import proofs.«137845_j1125281431922_1_alg».proof.Defs
import proofs.«137845_j1125281431922_1_alg».proof.Proof.Gen.Kernel
import proofs.«137845_j1125281431922_1_alg».proof.Proof.Gen.Kernel.Skeleton
import proofs.«137845_j1125281431922_1_alg».proof.Proof.Gen.Kernel.Launch
import proofs.«137845_j1125281431922_1_alg».proof.Proof.Gen.Kernel.Points
import proofs.«137845_j1125281431922_1_alg».proof.Proof.Gen.Kernel.Frame
import proofs.«137845_j1125281431922_1_alg».proof.Proof.Gen.KernelIdeal
import proofs.«137845_j1125281431922_1_alg».proof.Proof.Gen.KernelIdeal.Skeleton
import proofs.«137845_j1125281431922_1_alg».proof.Proof.Gen.KernelIdeal.Launch
import proofs.«137845_j1125281431922_1_alg».proof.Proof.Gen.KernelIdeal.Points
import proofs.«137845_j1125281431922_1_alg».proof.Proof.Gen.KernelIdeal.Frame
import proofs.«137845_j1125281431922_1_alg».proof.Proof.Gen.ReferenceIdeal
import proofs.«137845_j1125281431922_1_alg».proof.Proof.Gen.Pre_finite_inputs
import proofs.«137845_j1125281431922_1_alg».proof.Proof.Gen.KernelIdeal.Value
import proofs.«137845_j1125281431922_1_alg».proof.Proof.Gen.ReferenceIdeal.Run
import proofs.«137845_j1125281431922_1_alg».proof.Proof.Gen.ReferenceIdeal.Read
import proofs.«137845_j1125281431922_1_alg».proof.Proof.Blocks
import proofs.«137845_j1125281431922_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network on all the points, of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v36_eq, Cert.ReferenceIdeal.RefValue.network_eq]
  rw [h0, h1, h2, h3, h4, h5, h6, h7, h8, h9, h10, h11, h12, h13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
